-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S100000x128 .f32) (main_arg1 : IVec S1600000 32) (main_arg2 : IVec S1600000 32) (main_arg3 : FVec F S128x256 .f32) (main_arg4 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S5000x128 : Shape := ⟨2, ![5000, 128]⟩
abbrev S5000x256 : Shape := ⟨2, ![5000, 256]⟩
abbrev S1x256 : Shape := ⟨2, ![1, 256]⟩

abbrev nBuf : Space → Nat
  | .hbm => 22
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S100000x128, .bf16⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .bf16⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S128x256, .bf16⟩
  | .hbm, ⟨21, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S256, .f32⟩
  | .local _ .vmem, ⟨6, _⟩ => ⟨S5000x256, .f32⟩
  | .local _ .vmem, ⟨7, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S100000x256.size a
  hwx0_4 : ∀ i : grid0.Coords, EltTy.bits .f32 = 32 ∨ (Rect.block (s := S100000x256) S5000x256.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S100000x128, .f32⟩
  | .hbm, ⟨19, _⟩ => ⟨S100000x256, .f32⟩
  | .hbm, ⟨20, _⟩ => ⟨S1x256, .f32⟩
  | .hbm, ⟨21, _⟩ => ⟨S100000x256, .f32⟩
  | .hbm, ⟨22, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.Layer.lean ====
/-
  One graph-convolution layer with self loops, as a function of four arrays, entry by entry over the extended reals.

  `A` is the neighbour sum (row `v` of `A` is the sum of the feature rows of the nodes with an edge into `v`), `X` the
  node features, `W` the weight matrix and `b` the bias. Row `r` of the result is the row `A r + X r` (a node's
  neighbour sum plus its own features: the self loop) times `W`, plus `b`:

      layer A X W b (r, q) = (∑ k, (A (r, k) + X (r, k)) · W (k, q)) + b q.

  Nothing here depends on how `A` was computed: both programs build it from the same gather and the same scatter-add, so
  it enters as an argument. The sum over `k` runs over the 128 input features in one fixed order; on the extended reals
  addition is commutative and associative, so no other order or grouping needs to be considered, and no entry is
  required to be finite.
-/
import Idealize.ShloMosaic.PureOps.Ideal
import Idealize.ShloMosaic.Lib.ValueIdx

noncomputable section

namespace Cert.GraphLayer

open Idealize.ShloMosaic Idealize.ShloMosaic.ValueIdx

/-- Entry `(r, q)` of the layer: the inner product of row `r` of `A + X` with column `q` of `W`, plus `b q`. -/
def entry (A X : (⟨2, ![100000, 128]⟩ : Shape).Idx → EReal) (W : (⟨2, ![128, 256]⟩ : Shape).Idx → EReal)
    (b : (⟨1, ![256]⟩ : Shape).Idx → EReal) (r : Fin 100000) (q : Fin 256) : EReal :=
  (∑ k : Fin 128, (A (ix2 r k) + X (ix2 r k)) * W (ix2 k q)) + b (ix1 q)

/-- The layer's whole result: entry `(i 0, i 1)` at the index `i`. -/
def layer (A X : (⟨2, ![100000, 128]⟩ : Shape).Idx → EReal) (W : (⟨2, ![128, 256]⟩ : Shape).Idx → EReal)
    (b : (⟨1, ![256]⟩ : Shape).Idx → EReal) : (⟨2, ![100000, 256]⟩ : Shape).Idx → EReal :=
  fun i => entry A X W b (i 0) (i 1)

/-- At an index written by its coordinates the layer is that entry. -/
theorem layer_apply (A X : (⟨2, ![100000, 128]⟩ : Shape).Idx → EReal) (W : (⟨2, ![128, 256]⟩ : Shape).Idx → EReal)
    (b : (⟨1, ![256]⟩ : Shape).Idx → EReal) (r : Fin 100000) (q : Fin 256) :
    layer A X W b (ix2 r q) = entry A X W b r q := rfl

end Cert.GraphLayer

end
-- ==== Proof.TilePayload.lean ====
/-
  One tile of the layer: what the kernel body computes from the four blocks it loads, read at an entry.

  The body loads a 5000 × 128 block `a` of the neighbour sums, the matching block `x` of the features, the whole
  128 × 256 weight `w` and the whole bias `b`. It adds `a` and `x` entry by entry, multiplies the sum by `w` into an
  accumulator of zeros, and adds the bias, re-laid as one row `[1, 256]` and repeated over the 5000 rows. The two
  changes of float format on the way are the identity on the extended reals. So entry `(p, q)` of what it stores is

      (∑ k, (a (p, k) + x (p, k)) · w (k, q)) + b q,

  the sum over the 128 contracted coordinates: the product's entry `(p, q)` pairs row `p` of the left factor with column
  `q` of the right one, and the zero accumulator adds nothing.
-/
import proofs.«156882_j68908455297307_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx

/-- The left factor is read in the result's row: axis 0 of the left index is axis 0 of the result's. -/
theorem lhs_row (j : S5000x256.Idx) (k : dot_S5000x128_S128x256_S5000x256_1_0_0_1_n_n.contr.Idx) :
    (dot_S5000x128_S128x256_S5000x256_1_0_0_1_n_n.lhsIdx j k 0).val = (j 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- The right factor is read in the result's column: axis 1 of the right index is axis 1 of the result's. -/
theorem rhs_col (j : S5000x256.Idx) (k : dot_S5000x128_S128x256_S5000x256_1_0_0_1_n_n.contr.Idx) :
    (dot_S5000x128_S128x256_S5000x256_1_0_0_1_n_n.rhsIdx j k 1).val = (j 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- A 5000 × 128 block times the 128 × 256 matrix into an accumulator of zeros, at entry `(p, q)`: the sum over the
    contracted coordinate `k` of the block's `(p, k)` times the matrix's `(k, q)`. -/
theorem product_apply (h : FVec Ideal S5000x128 .bf16) (w : FVec Ideal S128x256 .bf16) (p : Fin 5000) (q : Fin 256) :
    FloatOps.matmul dot_S5000x128_S128x256_S5000x256_1_0_0_1_n_n none h w (constant (F := Ideal) S5000x256 .f32 0x00000000#32) (ix2 p q)
      = ∑ k : Fin 128, h (ix2 p k) * w (ix2 k q) := by
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k :=
    funext fun a => Fin.ext (by
      match a with
      | ⟨0, _⟩ => exact lhs_row _ _
      | ⟨1, _⟩ => exact (dot_S5000x128_S128x256_S5000x256_1_0_0_1_n_n.lhsIdx_val_of_single rfl _ _).trans hk)
  have er : dot_S5000x128_S128x256_S5000x256_1_0_0_1_n_n.rhsIdx (ix2 p q) ((contrEquiv1 dot_S5000x128_S128x256_S5000x256_1_0_0_1_n_n 128 rfl rfl).symm k) = ix2 k q :=
    funext fun a => Fin.ext (by
      match a with
      | ⟨0, _⟩ => exact (dot_S5000x128_S128x256_S5000x256_1_0_0_1_n_n.rhsIdx_val_of_single rfl _ _).trans hk
      | ⟨1, _⟩ => exact rhs_col _ _)
  rw [el, er]

/-- What the body stores, at entry `(p, q)` of the tile. -/
theorem payload_apply (a x : FVec Ideal S5000x128 .f32) (w : FVec Ideal S128x256 .bf16) (b : FVec Ideal S256 .f32)
    (p : Fin 5000) (q : Fin 256) :
    k0_pay1 (F := Ideal) a x w b (ix2 p q)
      = (∑ k : Fin 128, (a (ix2 p k) + x (ix2 p k)) * w (ix2 k q)) + b (ix1 q) := by
  unfold k0_pay1
  show FloatOps.matmul dot_S5000x128_S128x256_S5000x256_1_0_0_1_n_n none
        (truncf .bf16 (addf (shapeCast S5000x128 a shapeCasts_S5000x128_S5000x128) x) bitsLt_bf16_f32)
        (shapeCast S128x256 w shapeCasts_S128x256_S128x256) (constant (F := Ideal) S5000x256 .f32 0x00000000#32) (ix2 p q)
      + broadcastTo S5000x256 (shapeCast S1x256 b shapeCasts_S256_S1x256) broadcasts_S1x256_S5000x256 (ix2 p q) = _
  rw [product_apply, broadcastTo_1b_ab_apply, shapeCast_a_1a_apply, shapeCast_self, shapeCast_self]
  rfl

end Cert.KernelIdeal.Tile

end
-- ==== Proof.KernelLayer.lean ====
/-
  The kernel computes the layer of the arrays its region finds.

  The grid has 20 points. At point `t` the region stages rows `5000 t … 5000 t + 4999` of its first two operands (the
  neighbour sums and the features), the whole third operand (the weight) and the whole fourth (the bias), runs the body
  on them, and writes the body's 5000 × 256 result back as rows `5000 t … 5000 t + 4999` of the output. Entry `(p, q)` of
  what the body stores is the inner product of row `p` of the two staged blocks' sum with column `q` of the weight, plus
  the bias at `q`; row `p` of a block staged at point `t` is row `5000 t + p` of its array. So what point `t` writes back is
  block `t` of the layer of the four arrays — this holds of any four arrays, and is stated for arbitrary ones. Every row
  `r` of the output lies in the block of point `r / 5000`, so the 20 blocks cover the output, which therefore ends
  holding the layer of the four arrays the region finds.
-/
import proofs.«156882_j68908455297307_2_alg».proof.Proof.Gen.KernelIdeal.Value
import proofs.«156882_j68908455297307_2_alg».proof.Proof.Layer
import proofs.«156882_j68908455297307_2_alg».proof.Proof.TilePayload

noncomputable section

namespace Cert.KernelIdeal.Tiles

open Cert.KernelIdeal Cert.KernelIdeal.Gen Cert.KernelIdeal.Value Cert.GraphLayer
open Idealize.ShloMosaic Idealize.ShloMosaic.TcCoe Idealize.SL.Sem Idealize.ShloMosaic.ValueIdx
open Idealize.ShloMosaic.Pipeline (Dat)

theorem origin2 : (![0, 0] : Fin 2 → Nat) = fun _ => 0 := funext fun a => by fin_cases a <;> rfl
theorem origin1 : (![0] : Fin 1 → Nat) = fun _ => 0 := funext fun a => by fin_cases a <;> rfl

/-- Which block each window stages at point `t`, decided over the 20 points: the two row-tiled inputs and the output
    are on row block `t`, the weight and the bias on their one block. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `p` of the tile of point `t` is row `5000 t + p` of the array. -/
def row (t : Fin cfg0.N) (p : Fin 5000) : Fin 100000 :=
  ⟨t.val * 5000 + p.val, by
    have ht : t.val < 20 := lt_of_lt_of_eq t.isLt N_0
    have hp : p.val < 5000 := p.isLt
    omega⟩

/-- The body stores one whole block, and loads each operand's whole block: what it leaves in the output's buffer is its
    payload of the four blocks. -/
theorem out_eq_payload (x0 x1 : Vec Ideal S5000x128 .f32) (x2 : Vec Ideal S128x256 .bf16) (x3 : Vec Ideal S256 .f32) :
    out0_4 (F := Ideal) x0 x1 x2 x3 = k0_pay1 (F := Ideal) x0 x1 x2 x3 := by
  unfold out0_4
  rw [View.canon_unit_zero origin2]
  simp only [View.ld_unit_zero (S := S5000x128) origin2, View.ld_unit_zero (S := S128x256) origin2,
    View.ld_unit_zero (S := S256) origin1]

/-! ## One point, for any four arrays -/

section AnyArrays

variable (c : Dev nD)
  (A : Buf (Elt Ideal) ((c : Thread nD τ).loc (Pipeline.arrRef spec0 0)))
  (X : Buf (Elt Ideal) ((c : Thread nD τ).loc (Pipeline.arrRef spec0 1)))
  (W : Buf (Elt Ideal) ((c : Thread nD τ).loc (Pipeline.arrRef spec0 2)))
  (b : Buf (Elt Ideal) ((c : Thread nD τ).loc (Pipeline.arrRef spec0 3)))

/-- The first operand's block at point `t`, at `(p, k)`, is the array's entry `(5000 t + p, k)`. -/
theorem sums_rows (t : Fin cfg0.N) (p : Fin 5000) (k : Fin 128) :
    ((cfg0.win 0).blk t).view.read (Elt Ideal) A (ix2 p k) = (A : S100000x128.Idx → EReal) (ix2 (row t p) k) := by
  obtain ⟨e0, e1, -⟩ := block_of_point t
  show (A : S100000x128.Idx → EReal) (((cfg0.win 0).blk t).view.emb (ix2 p k)) = _
  refine congrArg (A : S100000x128.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The second operand's block at point `t`, at `(p, k)`, is the array's entry `(5000 t + p, k)`. -/
theorem features_rows (t : Fin cfg0.N) (p : Fin 5000) (k : Fin 128) :
    ((cfg0.win 1).blk t).view.read (Elt Ideal) X (ix2 p k) = (X : S100000x128.Idx → EReal) (ix2 (row t p) k) := by
  obtain ⟨-, -, e0, e1, -⟩ := block_of_point t
  show (X : S100000x128.Idx → EReal) (((cfg0.win 1).blk t).view.emb (ix2 p k)) = _
  refine congrArg (X : S100000x128.Idx → EReal) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The third operand's one block is the whole array. -/
theorem weight_whole (t : Fin cfg0.N) (k : Fin 128) (q : Fin 256) :
    ((cfg0.win 2).blk t).view.read (Elt Ideal) W (ix2 k q) = (W : S128x256.Idx → EReal) (ix2 k q) := by
  obtain ⟨-, -, -, -, e0, e1, -⟩ := block_of_point t
  show (W : S128x256.Idx → EReal) (((cfg0.win 2).blk t).view.emb (ix2 k q)) = _
  refine congrArg (W : S128x256.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The fourth operand's one block is the whole array. -/
theorem bias_whole (t : Fin cfg0.N) (q : Fin 256) :
    ((cfg0.win 3).blk t).view.read (Elt Ideal) b (ix1 q) = (b : S256.Idx → EReal) (ix1 q) := by
  obtain ⟨-, -, -, -, -, -, e0, -⟩ := block_of_point t
  show (b : S256.Idx → EReal) (((cfg0.win 3).blk t).view.emb (ix1 q)) = _
  refine congrArg (b : S256.Idx → EReal) (funext fun a => Fin.ext ?_)
  match a with
  | ⟨0, _⟩ => show win0_3.index t (0 : Fin 1) * 256 + 1 * q.val = q.val; rw [e0]; omega

/-- The body's payload of the four arrays' blocks at point `t`, read through the output's window, is block `t` of the
    layer of the four arrays. -/
theorem tile_eq_layer_block (t : Fin cfg0.N) :
    (cfg0.win 4).cut (grid0.coords t)
        (k0_pay1 (F := Ideal) (((cfg0.win 0).blk t).view.read (Elt Ideal) A) (((cfg0.win 1).blk t).view.read (Elt Ideal) X)
          (((cfg0.win 2).blk t).view.read (Elt Ideal) W) (((cfg0.win 3).blk t).view.read (Elt Ideal) b))
      = ((cfg0.win 4).blk t).view.read (Elt Ideal) (layer A X W b) := by
  obtain ⟨-, -, -, -, -, -, -, e0, e1⟩ := block_of_point t
  funext j
  obtain ⟨p, q, rfl⟩ : ∃ (p : Fin 5000) (q : Fin 256), j = ix2 p q := ⟨j 0, j 1, eq_ix2 j⟩
  show k0_pay1 (F := Ideal) (((cfg0.win 0).blk t).view.read (Elt Ideal) A) (((cfg0.win 1).blk t).view.read (Elt Ideal) X)
        (((cfg0.win 2).blk t).view.read (Elt Ideal) W) (((cfg0.win 3).blk t).view.read (Elt Ideal) b) (ix2 p q)
      = layer A X W b (((cfg0.win 4).blk t).view.emb (ix2 p q))
  have hemb : ((cfg0.win 4).blk t).view.emb (ix2 p q) = ix2 (row t p) q := funext fun a => Fin.ext (by
    match a with
    | ⟨0, _⟩ => show win0_4.index t (0 : Fin 2) * 5000 + 1 * p.val = t.val * 5000 + p.val; rw [e0]; omega
    | ⟨1, _⟩ => show win0_4.index t (1 : Fin 2) * 256 + 1 * q.val = q.val; rw [e1]; omega)
  rw [hemb, layer_apply]
  unfold entry
  refine (Tile.payload_apply (((cfg0.win 0).blk t).view.read (Elt Ideal) A) (((cfg0.win 1).blk t).view.read (Elt Ideal) X)
    (((cfg0.win 2).blk t).view.read (Elt Ideal) W) (((cfg0.win 3).blk t).view.read (Elt Ideal) b) p q).trans ?_
  rw [bias_whole c b t q]
  refine congrArg (· + (b : S256.Idx → EReal) (ix1 q)) (Finset.sum_congr rfl fun k _ => ?_)
  rw [sums_rows c A t p k, features_rows c X t p k, weight_whole c W t k q]

end AnyArrays

/-! ## The cover -/

/-- An index of the output is in point `t`'s block iff each coordinate is in the block's range on its axis. -/
theorem mem_block (t : Fin cfg0.N) (i : S100000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole main_v13).slice (win0_4.rect t)).set ↔ _
  rw [View.set_slice_whole, Rect.mem_set_unit]
  exact Iff.rfl

/-- Every index of the output is in the block of the point its row divided by 5000 names. -/
theorem covered (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have ht : (i 0).val / 5000 < cfg0.N := lt_of_lt_of_eq (by omega : (i 0).val / 5000 < 20) N_0.symm
  obtain ⟨-, -, -, -, -, -, -, e0, e1⟩ := block_of_point ⟨(i 0).val / 5000, ht⟩
  refine ⟨⟨(i 0).val / 5000, ht⟩, flush0_4 _, ?_⟩
  rw [mem_block]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, ht⟩ (1 : Fin 2) * 256 ≤ (i 1).val
      ∧ (i 1).val < win0_4.index ⟨(i 0).val / 5000, ht⟩ (1 : Fin 2) * 256 + 256
    rw [e1]
    omega

/-! ## The run -/

variable (m : (ℓ : Loc nD τ sig) → Buf (Elt Ideal) ℓ) (ρ : Dev nD → PrngReg)

/-- What point `t` writes back is block `t` of the layer of the four arrays the region finds. -/
theorem flushed_eq_layer (c : Dev nD) (t : Fin cfg0.N) :
    (dats m 0 c).flushed 4 t = ((cfg0.win 4).blk t).view.read (Elt Ideal)
      (layer (V m c (Pipeline.arrRef spec0 0)) (V m c (Pipeline.arrRef spec0 1)) (V m c (Pipeline.arrRef spec0 2))
        (V m c (Pipeline.arrRef spec0 3))) := by
  rw [Value.flushed4, out_eq_payload (iblk m c 0 t) (iblk m c 1 t) (iblk m c 2 t) (iblk m c 3 t)]
  unfold iblk
  exact tile_eq_layer_block c (V m c (Pipeline.arrRef spec0 0)) (V m c (Pipeline.arrRef spec0 1))
    (V m c (Pipeline.arrRef spec0 2)) (V m c (Pipeline.arrRef spec0 3)) t

/-- The output array after the run is the layer of the four arrays the region finds. -/
theorem final_eq_layer (c : Dev nD) :
    (dats m 0 c).arrAt 4 cfg0.N
      = layer (V m c (Pipeline.arrRef spec0 0)) (V m c (Pipeline.arrRef spec0 1)) (V m c (Pipeline.arrRef spec0 2))
          (V m c (Pipeline.arrRef spec0 3)) :=
  (dats m 0 c).arrAt_eq_of_cover 4 _ (fun t _ => flushed_eq_layer m c t) covered

/-- The run, read: the result at the layer of the arrays the region finds, every argument unchanged. -/
theorem run : θ_run defs (onTc (τ := τ) (main (F := Ideal))) ⟨m, fun _ => 0, ρ⟩ fun r => ∀ c : Dev nD,
      r.2.mem ((c : Thread nD τ).loc main_v13)
        = layer (V m c (Pipeline.arrRef spec0 0)) (V m c (Pipeline.arrRef spec0 1)) (V m c (Pipeline.arrRef spec0 2))
            (V m c (Pipeline.arrRef spec0 3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq_layer m c), (h c).2⟩) (Value.run_blocks m ρ)

end Cert.KernelIdeal.Tiles

end
-- ==== Proof.HostHead.lean ====
/-
  What the kernel's region finds in the two operands the host computes for it.

  Before the region the host program converts the features to the narrower float format, gathers one row per edge at the
  edge's source node (a negative source index first moved up by the number of nodes), converts the gathered rows back,
  and adds each into the row of its destination node of an array of zeros: the neighbour sums. It also converts the
  weight to the narrower format. On the extended reals a change of float format is the identity, so the neighbour sums
  are the scatter-add of the gathered rows of the features themselves — the very stage the reference computes, with
  the same gather, the same scatter-add and the same index arithmetic — and the converted weight is the weight.
-/
import proofs.«156882_j68908455297307_2_alg».proof.Proof.Gen.KernelIdeal.Frame
import proofs.«156882_j68908455297307_2_alg».proof.Proof.Gen.ReferenceIdeal.Read
import Idealize.ShloMosaic.Lib.StableHlo.Run

noncomputable section

namespace Cert.KernelIdeal.HostHead

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The first operand, as the region finds it, is the reference's scatter-added stage of the same three arguments. -/
theorem neighbour_sums (c : Dev nD) :
    (V m c main_v11 : S100000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The third operand, as the region finds it, is the weight argument. -/
theorem weight (c : Dev nD) :
    (V m c main_v12 : S128x256.Idx → EReal) = m ((c : Thread nD τ).loc main_arg3) := by
  dsimp only [Gen.V, Gen.hostOps0]
  after_results
  rfl

end Cert.KernelIdeal.HostHead

end
-- ==== Proof.KernelResult.lean ====
/-
  The kernel's result as a function of its five arguments.

  The region's four operands are: the neighbour sums, which the host prefix builds from the features and the two edge
  lists exactly as the reference builds its own scatter-added stage; the features, which no host operation writes; the
  weight after a change of float format, which is the weight; and the bias, which no host operation writes. The kernel
  ends with the layer of these four arrays in its result, so its result is the layer of the reference's scatter-added
  stage of the same arguments, the features, the weight and the bias.
-/
import proofs.«156882_j68908455297307_2_alg».proof.Proof.KernelLayer
import proofs.«156882_j68908455297307_2_alg».proof.Proof.HostHead

noncomputable section

namespace Cert.KernelIdeal.Result

open Cert.KernelIdeal Cert.KernelIdeal.Gen Cert.GraphLayer
open Idealize.ShloMosaic Idealize.ShloMosaic.TcCoe Idealize.SL.Sem

variable (m : (ℓ : Loc nD τ sig) → Buf (Elt Ideal) ℓ) (ρ : Dev nD → PrngReg)

/-- The layer of the four arrays the region finds is the layer of the scatter-added stage of the arguments, the
    features, the weight and the bias. -/
theorem layer_of_found (c : Dev nD) :
    layer (V m c (Pipeline.arrRef spec0 0)) (V m c (Pipeline.arrRef spec0 1)) (V m c (Pipeline.arrRef spec0 2))
        (V m c (Pipeline.arrRef spec0 3))
      = layer (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg0)) (m ((c : Thread nD τ).loc main_arg3))
          (m ((c : Thread nD τ).loc main_arg4)) := by
  show layer (V m c main_v11 : S100000x128.Idx → EReal) (V m c main_arg0) (V m c main_v12 : S128x256.Idx → EReal)
      (V m c main_arg4) = _
  rw [HostHead.neighbour_sums m c, HostHead.weight m c, V_main_arg0 m c, V_main_arg4 m c]

/-- The run, read: the result at the layer of the arguments, every argument unchanged. -/
theorem run : θ_run defs (onTc (τ := τ) (main (F := Ideal))) ⟨m, fun _ => 0, ρ⟩ fun r => ∀ c : Dev nD,
      r.2.mem ((c : Thread nD τ).loc main_v13)
        = layer (Cert.ReferenceIdeal.Read.val_main_v9 (F := Ideal) (m ((c : Thread nD τ).loc main_arg0))
              (m ((c : Thread nD τ).loc main_arg1)) (m ((c : Thread nD τ).loc main_arg2)))
            (m ((c : Thread nD τ).loc main_arg0)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (layer_of_found m c), (h c).2⟩) (Tiles.run m ρ)

end Cert.KernelIdeal.Result

end
-- ==== Proof.ReferenceLayer.lean ====
/-
  The reference program computes the layer.

  Its last stage adds, entry by entry, a matrix product and the bias broadcast over the rows. The product's left factor
  is the stage `A + X`, where `A` is the scatter-added array (kept whole: which entries it sums depends on the edge
  lists, and the kernel builds the same array) and `X` the features; its entry `(r, q)` is the sum over the contracted
  axis `k` of `(A + X) (r, k) · W (k, q)`. The bias reaches entry `(r, q)` through two broadcasts, `[256] → [1, 256] →
  [100000, 256]`, and is `b q` there. So entry `(r, q)` of the result is `(∑ k, (A (r, k) + X (r, k)) · W (k, q)) + b q`.
-/
import proofs.«156882_j68908455297307_2_alg».proof.Proof.Gen.ReferenceIdeal.Read
import proofs.«156882_j68908455297307_2_alg».proof.Proof.Layer

noncomputable section

namespace Cert.ReferenceIdeal.Layer

open Cert.ReferenceIdeal Cert.ReferenceIdeal.Read Cert.GraphLayer
open Idealize.ShloMosaic Idealize.ShloMosaic.ValueIdx

/-- The reference's result, as a function of its five arguments, is the layer of its own scatter-added array, the
    features, the weight and the bias. -/
theorem result_eq_layer (x0 : (⟨S100000x128, .f32⟩ : BufTy).Contents (Elt Ideal))
    (x1 x2 : (⟨S1600000, .i32⟩ : BufTy).Contents (Elt Ideal)) (x3 : (⟨S128x256, .f32⟩ : BufTy).Contents (Elt Ideal))
    (x4 : (⟨S256, .f32⟩ : BufTy).Contents (Elt Ideal)) :
    val_main_v14 (F := Ideal) x0 x1 x2 x3 x4 = layer (val_main_v9 (F := Ideal) x0 x1 x2) x0 x3 x4 := by
  funext i
  obtain ⟨r, q, rfl⟩ : ∃ (r : Fin 100000) (q : Fin 256), i = ix2 r q := ⟨i 0, i 1, eq_ix2 i⟩
  -- the product's two factors and the bias, each read where entry `(r, q)` reads it
  have el : ∀ k : Fin 128, lidx_main_v11 (ix2 r q) k = ix2 r k := fun k => funext fun a => Fin.ext (by
    match a with
    | ⟨0, _⟩ => rfl
    | ⟨1, _⟩ => rfl)
  have er : ∀ k : Fin 128, ridx_main_v11 (ix2 r q) k = ix2 k q := fun k => funext fun a => Fin.ext (by
    match a with
    | ⟨0, _⟩ => rfl
    | ⟨1, _⟩ => rfl)
  have eb : idx_main_v12 (idx_main_v13 (ix2 r q)) = ix1 q := funext fun a => Fin.ext (by
    match a with
    | ⟨0, _⟩ => rfl)
  rw [val_main_v14_apply, val_main_v11_apply, val_main_v13_apply, val_main_v12_apply, layer_apply, eb, Ideal.addf_def]
  unfold entry
  -- the two sums agree term by term
  refine congrArg (· + x4 (ix1 q)) (Finset.sum_congr rfl fun k _ => ?_)
  rw [el k, er k, val_main_v10_apply, Ideal.addf_def]

end Cert.ReferenceIdeal.Layer

end
-- ==== Proof.lean ====
/-
  A graph-convolution layer with self loops, tiled over rows on the kernel side, against the same layer written with
  whole-array operations: both end with, at entry `(r, q)`,

      (∑ k, (A (r, k) + X (r, k)) · W (k, q)) + b q,

  where `X` is the features, `W` the weight, `b` the bias and `A` the neighbour sums (row `v` of `A` is the sum of
  the feature rows at the sources of the edges into `v`).

  Both programs build `A` by the same gather and the same scatter-add with the same index arithmetic; the kernel's
  program changes the float format before the gather and back after it, which is the identity on the extended reals, so
  the two arrays `A` are one (Proof/HostHead.lean). The kernel's region then works on 20 tiles of 5000 rows: on a tile it
  adds the blocks of `A` and `X`, multiplies by `W` into zeros and adds `b` (Proof/TilePayload.lean), and the tiles
  cover the result (Proof/KernelLayer.lean, Proof/KernelResult.lean). The reference adds `A` and `X`, multiplies by `W`
  and adds `b` broadcast over the rows (Proof/ReferenceLayer.lean). The two results are the same sums of the same
  products in the same order (Proof/Layer.lean states the function); nothing is rearranged, so no entry needs to be
  finite and the precondition is not used. The idealization of the kernel rewrote nothing, so that it preserves the
  kernel is trivial; the three frames are the programs' runs with the results dropped.
-/
import proofs.«156882_j68908455297307_2_alg».proof.Defs
import proofs.«156882_j68908455297307_2_alg».proof.Proof.Gen.Kernel
import proofs.«156882_j68908455297307_2_alg».proof.Proof.Gen.Kernel.Skeleton
import proofs.«156882_j68908455297307_2_alg».proof.Proof.Gen.Kernel.Launch
import proofs.«156882_j68908455297307_2_alg».proof.Proof.Gen.Kernel.Points
import proofs.«156882_j68908455297307_2_alg».proof.Proof.Gen.Kernel.Frame
import proofs.«156882_j68908455297307_2_alg».proof.Proof.Gen.KernelIdeal
import proofs.«156882_j68908455297307_2_alg».proof.Proof.Gen.KernelIdeal.Skeleton
import proofs.«156882_j68908455297307_2_alg».proof.Proof.Gen.KernelIdeal.Launch
import proofs.«156882_j68908455297307_2_alg».proof.Proof.Gen.KernelIdeal.Points
import proofs.«156882_j68908455297307_2_alg».proof.Proof.Gen.KernelIdeal.Frame
import proofs.«156882_j68908455297307_2_alg».proof.Proof.Gen.ReferenceIdeal
import proofs.«156882_j68908455297307_2_alg».proof.Proof.Gen.Pre_finite_inputs
import proofs.«156882_j68908455297307_2_alg».proof.Proof.Gen.KernelIdeal.Value
import proofs.«156882_j68908455297307_2_alg».proof.Proof.Gen.ReferenceIdeal.Run
import proofs.«156882_j68908455297307_2_alg».proof.Proof.Gen.ReferenceIdeal.Read
import proofs.«156882_j68908455297307_2_alg».proof.Proof.KernelResult
import proofs.«156882_j68908455297307_2_alg».proof.Proof.ReferenceLayer
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both idealized programs end with the layer of the scatter-added stage
    of the arguments, the features, the weight and the bias in their results. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v14_eq _ _ _ _ _).trans (Cert.ReferenceIdeal.Layer.result_eq_layer _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
